-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .bf16⟩
  | .hbm, ⟨41, _⟩ => ⟨S128x128, .bf16⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S128x64, .bf16⟩
  | .hbm, ⟨61, _⟩ => ⟨S128x64, .bf16⟩
  | .hbm, ⟨62, _⟩ => ⟨S1x64, .f32⟩
  | .hbm, ⟨63, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .bf16⟩
  | .local _ .vmem, ⟨14, _⟩ => ⟨S128x64, .bf16⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .bf16 = 32 ∨ (Rect.block (s := S128x64) S128x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.WholeRun.lean ====
/-
  The idealized kernel program's whole run, with every buffer named at the end.

  The program is four stretches in order: host operations, the first dense stage on a grid of 20 row blocks, host
  operations again, the second dense stage on the same grid. The contents of the TensorCore's unscoped buffers at each
  boundary are a fold from the launch memory: a host stretch applies its operations, a dense stage replaces its arrays
  by what its write-backs leave and keeps every other buffer. This module runs the four stretches from any launch memory
  and keeps, of the final state, every unscoped buffer at the last boundary's contents; the frame statement is the
  special case that looks only at the argument arrays.
-/
import proofs.«140580_j48876727828948_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final state every unscoped
    buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array and the argument arrays in the final state: the result at the last boundary's contents, each
    argument as launched. -/
theorem run_result : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v45 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩)
    (run_all m ρ)

end Cert.KernelIdeal.Whole

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«140580_j48876727828948_1_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.DenseBlock.lean ====
/-
  One block of a dense stage, read at an entry.

  At a grid point the stage's body holds a block of 5000 rows of the neighbour means M and of the features X, the two
  whole weight matrices Wl and Wr and the bias row b, and stores relu((M Wl + X Wr) + b). Over the extended reals the
  roundings to sixteen bits are the identity and each matrix product into a zero accumulator is the plain sum over the
  128 contracted positions, so entry (p, q) of the stored block is
      max((sum_k M(p,k) Wl(k,q) + sum_k X(p,k) Wr(k,q)) + b(0,q), 0).
  Stated once for the first stage (128 output columns) and once for the second (64).
-/
import proofs.«140580_j48876727828948_1_alg».proof.Proof.Gen.KernelIdeal.Skeleton
import proofs.«140580_j48876727828948_1_alg».proof.Proof.LibDotApply
import Idealize.ShloMosaic.Lib.Pipeline.Value
import Idealize.ShloMosaic.Lib.ValueIdx
import Idealize.ShloMosaic.PureOps.Ideal.Laws

noncomputable section

namespace Cert.KernelIdeal.Dense

open Cert.KernelIdeal Cert.KernelIdeal.Gen Idealize.ShloMosaic Idealize.ShloMosaic.ValueIdx
open Cert.LibPlainDot Cert.LibDotApply

theorem plain0 : IsPlain dot_S5000x128_S128x128_S5000x128_1_0_0_1_n_n := ⟨rfl, rfl, rfl, rfl, rfl, rfl⟩
theorem plain1 : IsPlain dot_S5000x128_S128x64_S5000x64_1_0_0_1_n_n := ⟨rfl, rfl, rfl, rfl, rfl, rfl⟩

/-- The bias row broadcast down the block's rows, read at (p, q), is the row's entry q. -/
theorem bias_row0 (b : Vec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => rfl
    | ⟨1, _⟩ => rfl)

/-- Entry (p, q) of the block the first stage's body stores. -/
theorem pay0_apply (v0 v3 : Vec Ideal S5000x128 .f32) (v5 v8 : Vec Ideal S128x128 .bf16) (v12 : Vec Ideal S1x128 .f32)
    (p : Fin 5000) (q : Fin 128) :
    k0_pay1 (F := Ideal) v0 v3 v5 v8 v12 (ix2 p q)
      = max (((∑ k : Fin 128, v0 (ix2 p k) * v5 (ix2 k q)) + (∑ k : Fin 128, v3 (ix2 p k) * v8 (ix2 k q))) + v12 (ix2 0 q)) 0 := by
  unfold k0_pay1
  simp only [shapeCast_self]
  show (max ((FloatOps.matmul (F := Ideal) dot_S5000x128_S128x128_S5000x128_1_0_0_1_n_n none v0 v5 (constant (F := Ideal) S5000x128 .f32 0x00000000#32) (ix2 p q)
        + FloatOps.matmul (F := Ideal) dot_S5000x128_S128x128_S5000x128_1_0_0_1_n_n none v3 v8 (constant (F := Ideal) S5000x128 .f32 0x00000000#32) (ix2 p q))
        + broadcastTo S5000x128 v12 broadcasts_S1x128_S5000x128 (ix2 p q)) (Ideal.ofBits .f32 0x00000000#32) : EReal) = _
  rw [matmul_zero_apply _ plain0, matmul_zero_apply _ plain0, bias_row0, Ideal.ofBits_zero_f32]

/-- The second stage's bias row broadcast down the block's rows, read at (p, q), is the row's entry q. -/
theorem bias_row1 (b : Vec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => by
    match a with
    | ⟨0, _⟩ => rfl
    | ⟨1, _⟩ => rfl)

/-- Entry (p, q) of the block the second stage's body stores. -/
theorem pay1_apply (v0 v3 : Vec Ideal S5000x128 .f32) (v6 v9 : Vec Ideal S128x64 .bf16) (v13 : Vec Ideal S1x64 .f32)
    (p : Fin 5000) (q : Fin 64) :
    k1_pay1 (F := Ideal) v0 v3 v6 v9 v13 (ix2 p q)
      = max (((∑ k : Fin 128, v0 (ix2 p k) * v6 (ix2 k q)) + (∑ k : Fin 128, v3 (ix2 p k) * v9 (ix2 k q))) + v13 (ix2 0 q)) 0 := by
  unfold k1_pay1
  simp only [shapeCast_self]
  show (max ((FloatOps.matmul (F := Ideal) dot_S5000x128_S128x64_S5000x64_1_0_0_1_n_n none v0 v6 (constant (F := Ideal) S5000x64 .f32 0x00000000#32) (ix2 p q)
        + FloatOps.matmul (F := Ideal) dot_S5000x128_S128x64_S5000x64_1_0_0_1_n_n none v3 v9 (constant (F := Ideal) S5000x64 .f32 0x00000000#32) (ix2 p q))
        + broadcastTo S5000x64 v13 broadcasts_S1x64_S5000x64 (ix2 p q)) (Ideal.ofBits .f32 0x00000000#32) : EReal) = _
  rw [matmul_zero_apply _ plain1, matmul_zero_apply _ plain1, bias_row1, Ideal.ofBits_zero_f32]

end Cert.KernelIdeal.Dense

end
-- ==== Proof.StageArray0.lean ====
/-
  The array the first dense stage leaves, as one function of the arrays it reads.

  The stage's grid has 20 points; point t works on rows 5000 t … 5000 t + 4999 of the neighbour means M and of the
  features X (both 100000 x 128), on the whole weight matrices Wl and Wr (128 x 128) and the whole bias row b (1 x 128),
  and writes back rows 5000 t … 5000 t + 4999 of the result. Every row of the result belongs to exactly one point, so the
  result array ends holding, at row r and column q,
      max((sum_k M(r,k) Wl(k,q) + sum_k X(r,k) Wr(k,q)) + b(0,q), 0),
  whatever the arrays held when the stage was entered. Stated for any entry contents, so that the same statement serves
  wherever the stage sits in the program.
-/
import proofs.«140580_j48876727828948_1_alg».proof.Proof.Gen.KernelIdeal.Frame
import proofs.«140580_j48876727828948_1_alg».proof.Proof.DenseBlock
import Idealize.ShloMosaic.Lib.Pipeline.Value
import Idealize.ShloMosaic.Lib.ValueIdx

set_option maxRecDepth 16384

noncomputable section

namespace Cert.KernelIdeal.Stage0

open Cert.KernelIdeal Cert.KernelIdeal.Gen Cert.KernelIdeal.Dense
open Idealize.ShloMosaic Idealize.ShloMosaic.TcCoe Idealize.ShloMosaic.ValueIdx Idealize.SL.Sem
open Idealize.ShloMosaic.Pipeline (Dat)

/-- Row of an index of a 100000 x 128 array. -/
abbrev row (i : S100000x128.Idx) : Fin 100000 := ⟨(i 0).val, idx2_lt0 i⟩
/-- Column of an index of a 100000 x 128 array. -/
abbrev col (i : S100000x128.Idx) : Fin 128 := ⟨(i 1).val, idx2_lt1 i⟩

/-- The dense stage on whole arrays: entry (r, q) is max((sum_k M(r,k) Wl(k,q) + sum_k X(r,k) Wr(k,q)) + b(0,q), 0). -/
def stage (M X : Vec Ideal S100000x128 .f32) (Wl Wr : Vec Ideal S128x128 .bf16) (b : Vec Ideal S1x128 .f32) :
    Vec Ideal S100000x128 .f32 := fun i =>
  max (((∑ k : Fin 128, M (ix2 (row i) k) * Wl (ix2 k (col i))) + (∑ k : Fin 128, X (ix2 (row i) k) * Wr (ix2 k (col i))))
    + b (ix2 0 (col i))) 0

/-- A block entry is the whole-array function's entry: if the loaded row blocks are rows 5000 n … of M and X, and the
    loaded matrices and bias are Wl, Wr, b, then the stored block at (p, q) is the stage's entry at (5000 n + p, q). -/
theorem block_entry (M X : Vec Ideal S100000x128 .f32) (Wl Wr : Vec Ideal S128x128 .bf16) (b : Vec Ideal S1x128 .f32)
    (x0 x1 : Vec Ideal S5000x128 .f32) (x2 x3 : Vec Ideal S128x128 .bf16) (x4 : Vec Ideal S1x128 .f32)
    (n : Nat) (hn : n < 20)
    (h0 : ∀ (p : Fin 5000) (k : Fin 128), x0 (ix2 p k) = M (ix2 ⟨5000 * n + p.val, by omega⟩ k))
    (h1 : ∀ (p : Fin 5000) (k : Fin 128), x1 (ix2 p k) = X (ix2 ⟨5000 * n + p.val, by omega⟩ k))
    (h2 : ∀ (k : Fin 128) (q : Fin 128), x2 (ix2 k q) = Wl (ix2 k q))
    (h3 : ∀ (k : Fin 128) (q : Fin 128), x3 (ix2 k q) = Wr (ix2 k q))
    (h4 : ∀ (q : Fin 128), x4 (ix2 0 q) = b (ix2 0 q))
    (y : S5000x128.Idx) (i : S100000x128.Idx)
    (hi0 : (i 0).val = 5000 * n + (y 0).val) (hi1 : (i 1).val = (y 1).val) :
    k0_pay1 (F := Ideal) x0 x1 x2 x3 x4 y = stage M X Wl Wr b i := by
  obtain ⟨p, q, rfl⟩ : ∃ (p : Fin 5000) (q : Fin 128), y = ix2 p q := ⟨y 0, y 1, eq_ix2 y⟩
  have er : row i = ⟨5000 * n + p.val, by omega⟩ := Fin.ext hi0
  have ec : col i = q := Fin.ext hi1
  rw [pay0_apply]
  unfold stage
  rw [er, ec]
  simp only [h0, h1, h2, h3, h4]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid's 20 points: the two row-blocked inputs and the output sit at block
    row t, block column 0; the weight matrices and the bias row are one block each, at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 20 :=
  Nat.lt_of_lt_of_eq t.isLt (show cfg0.N = 20 from N_0)

/-- The block of neighbour means at point t is rows 5000 t … of the array of means. -/
theorem iblk_0 (c : Dev nD) (t : Fin cfg0.N) (p : Fin 5000) (k : Fin 128) :
    (iblk0 V c 0 t : Vec Ideal S5000x128 .f32) (ix2 p k)
      = (V c main_v24 : Vec Ideal S100000x128 .f32) (ix2 ⟨5000 * t.val + p.val, by have := t_lt t; omega⟩ k) := by
  obtain ⟨e0, e1, -⟩ := idx_facts t
  show (V c main_v24 : Vec Ideal S100000x128 .f32) (((cfg0.win 0).blk t).view.emb (ix2 p k)) = _
  refine congrArg (V c main_v24 : Vec Ideal S100000x128 .f32) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The block of features at point t is rows 5000 t … of the array of features. -/
theorem iblk_1 (c : Dev nD) (t : Fin cfg0.N) (p : Fin 5000) (k : Fin 128) :
    (iblk0 V c 1 t : Vec Ideal S5000x128 .f32) (ix2 p k)
      = (V c main_arg0 : Vec Ideal S100000x128 .f32) (ix2 ⟨5000 * t.val + p.val, by have := t_lt t; omega⟩ k) := by
  obtain ⟨-, -, e0, e1, -⟩ := idx_facts t
  show (V c main_arg0 : Vec Ideal S100000x128 .f32) (((cfg0.win 1).blk t).view.emb (ix2 p k)) = _
  refine congrArg (V c main_arg0 : Vec Ideal S100000x128 .f32) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The first weight matrix is one block: every point reads all of it. -/
theorem iblk_2 (c : Dev nD) (t : Fin cfg0.N) (k : Fin 128) (q : Fin 128) :
    (iblk0 V c 2 t : Vec Ideal S128x128 .bf16) (ix2 k q) = (V c main_v25 : Vec Ideal S128x128 .bf16) (ix2 k q) := by
  obtain ⟨-, -, -, -, e0, e1, -⟩ := idx_facts t
  show (V c main_v25 : Vec Ideal S128x128 .bf16) (((cfg0.win 2).blk t).view.emb (ix2 k q)) = _
  refine congrArg (V c main_v25 : Vec Ideal S128x128 .bf16) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The second weight matrix is one block: every point reads all of it. -/
theorem iblk_3 (c : Dev nD) (t : Fin cfg0.N) (k : Fin 128) (q : Fin 128) :
    (iblk0 V c 3 t : Vec Ideal S128x128 .bf16) (ix2 k q) = (V c main_v26 : Vec Ideal S128x128 .bf16) (ix2 k q) := by
  obtain ⟨-, -, -, -, -, -, e0, e1, -⟩ := idx_facts t
  show (V c main_v26 : Vec Ideal S128x128 .bf16) (((cfg0.win 3).blk t).view.emb (ix2 k q)) = _
  refine congrArg (V c main_v26 : Vec Ideal S128x128 .bf16) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias row is one block: every point reads all of it. -/
theorem iblk_4 (c : Dev nD) (t : Fin cfg0.N) (q : Fin 128) :
    (iblk0 V c 4 t : Vec Ideal S1x128 .f32) (ix2 0 q) = (V c main_v27 : Vec Ideal S1x128 .f32) (ix2 0 q) := by
  obtain ⟨-, -, -, -, -, -, -, -, e0, e1, -⟩ := idx_facts t
  show (V c main_v27 : Vec Ideal S1x128 .f32) (((cfg0.win 4).blk t).view.emb (ix2 0 q)) = _
  refine congrArg (V c main_v27 : Vec Ideal S1x128 .f32) (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-- What point t writes back is rows 5000 t … of the stage's whole-array function of the arrays as the stage finds them. -/
theorem flushed_eq (c : Dev nD) (t : Fin cfg0.N) :
    (dat0 V c).flushed 5 t = ((cfg0.win 5).blk t).view.read (Elt Ideal)
      (stage (V c main_v24) (V c main_arg0) (V c main_v25) (V c main_v26) (V c main_v27)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  funext j
  show k0_pay1 (F := Ideal) (iblk0 V c 0 t) (iblk0 V c 1 t) (iblk0 V c 2 t) (iblk0 V c 3 t) (iblk0 V c 4 t) j
    = stage (V c main_v24) (V c main_arg0) (V c main_v25) (V c main_v26) (V c main_v27) (((cfg0.win 5).blk t).view.emb j)
  refine block_entry (V c main_v24) (V c main_arg0) (V c main_v25) (V c main_v26) (V c main_v27)
    (iblk0 V c 0 t) (iblk0 V c 1 t) (iblk0 V c 2 t) (iblk0 V c 3 t) (iblk0 V c 4 t) t.val (t_lt t)
    (iblk_0 V c t) (iblk_1 V c t) (iblk_2 V c t) (iblk_3 V c t) (iblk_4 V c t) j (((cfg0.win 5).blk t).view.emb j) ?_ ?_
  · show win0_5.index t (0 : Fin 2) * 5000 + 1 * (j 0).val = 5000 * t.val + (j 0).val
    rw [e0]; omega
  · show win0_5.index t (1 : Fin 2) * 128 + 1 * (j 1).val = (j 1).val
    rw [e1]; omega

/-- An index of the result array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Every row of the result belongs to a point: row r to point r / 5000. -/
theorem cover (i : S100000x128.Idx) : ∃ t : Fin cfg0.N, (cfg0.win 5).flush t = true ∧ i ∈ ((cfg0.win 5).blk t).view.set := by
  have hi0 : (i 0).val < 100000 := idx2_lt0 i
  have hi1 : (i 1).val < 128 := idx2_lt1 i
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- The result array after the stage: the stage's function of the arrays as the stage finds them. -/
theorem array_after (c : Dev nD) :
    (dat0 V c).arrAt 5 cfg0.N = stage (V c main_v24) (V c main_arg0) (V c main_v25) (V c main_v26) (V c main_v27) :=
  (dat0 V c).arrAt_eq_of_cover 5 _ (fun t _ => flushed_eq V c t) (cover)

end Cert.KernelIdeal.Stage0

end
-- ==== Proof.StageArray1.lean ====
/-
  The array the second dense stage leaves, as one function of the arrays it reads.

  The same grid of 20 row blocks as the first stage: point t works on rows 5000 t … 5000 t + 4999 of the neighbour
  means M and of the hidden features H (both 100000 x 128), on the whole weight matrices Wl and Wr (128 x 64) and the
  whole bias row b (1 x 64), and writes back the same rows of the result (100000 x 64). Every row belongs to exactly one
  point, so the result array ends holding, at row r and column q,
      max((sum_k M(r,k) Wl(k,q) + sum_k H(r,k) Wr(k,q)) + b(0,q), 0),
  for any contents the arrays had when the stage was entered.
-/
import proofs.«140580_j48876727828948_1_alg».proof.Proof.Gen.KernelIdeal.Frame
import proofs.«140580_j48876727828948_1_alg».proof.Proof.DenseBlock
import Idealize.ShloMosaic.Lib.Pipeline.Value
import Idealize.ShloMosaic.Lib.ValueIdx

set_option maxRecDepth 16384

noncomputable section

namespace Cert.KernelIdeal.Stage1

open Cert.KernelIdeal Cert.KernelIdeal.Gen Cert.KernelIdeal.Dense
open Idealize.ShloMosaic Idealize.ShloMosaic.TcCoe Idealize.ShloMosaic.ValueIdx Idealize.SL.Sem
open Idealize.ShloMosaic.Pipeline (Dat)

/-- Row of an index of the 100000 x 64 result. -/
abbrev row (i : S100000x64.Idx) : Fin 100000 := ⟨(i 0).val, idx2_lt0 i⟩
/-- Column of an index of the 100000 x 64 result. -/
abbrev col (i : S100000x64.Idx) : Fin 64 := ⟨(i 1).val, idx2_lt1 i⟩

/-- The dense stage on whole arrays: entry (r, q) is max((sum_k M(r,k) Wl(k,q) + sum_k H(r,k) Wr(k,q)) + b(0,q), 0). -/
def stage (M H : Vec Ideal S100000x128 .f32) (Wl Wr : Vec Ideal S128x64 .bf16) (b : Vec Ideal S1x64 .f32) :
    Vec Ideal S100000x64 .f32 := fun i =>
  max (((∑ k : Fin 128, M (ix2 (row i) k) * Wl (ix2 k (col i))) + (∑ k : Fin 128, H (ix2 (row i) k) * Wr (ix2 k (col i))))
    + b (ix2 0 (col i))) 0

/-- A block entry is the whole-array function's entry: if the loaded row blocks are rows 5000 n … of M and H, and the
    loaded matrices and bias are Wl, Wr, b, then the stored block at (p, q) is the stage's entry at (5000 n + p, q). -/
theorem block_entry (M H : Vec Ideal S100000x128 .f32) (Wl Wr : Vec Ideal S128x64 .bf16) (b : Vec Ideal S1x64 .f32)
    (x0 x1 : Vec Ideal S5000x128 .f32) (x2 x3 : Vec Ideal S128x64 .bf16) (x4 : Vec Ideal S1x64 .f32)
    (n : Nat) (hn : n < 20)
    (h0 : ∀ (p : Fin 5000) (k : Fin 128), x0 (ix2 p k) = M (ix2 ⟨5000 * n + p.val, by omega⟩ k))
    (h1 : ∀ (p : Fin 5000) (k : Fin 128), x1 (ix2 p k) = H (ix2 ⟨5000 * n + p.val, by omega⟩ k))
    (h2 : ∀ (k : Fin 128) (q : Fin 64), x2 (ix2 k q) = Wl (ix2 k q))
    (h3 : ∀ (k : Fin 128) (q : Fin 64), x3 (ix2 k q) = Wr (ix2 k q))
    (h4 : ∀ (q : Fin 64), x4 (ix2 0 q) = b (ix2 0 q))
    (y : S5000x64.Idx) (i : S100000x64.Idx)
    (hi0 : (i 0).val = 5000 * n + (y 0).val) (hi1 : (i 1).val = (y 1).val) :
    k1_pay1 (F := Ideal) x0 x1 x2 x3 x4 y = stage M H Wl Wr b i := by
  obtain ⟨p, q, rfl⟩ : ∃ (p : Fin 5000) (q : Fin 64), y = ix2 p q := ⟨y 0, y 1, eq_ix2 y⟩
  have er : row i = ⟨5000 * n + p.val, by omega⟩ := Fin.ext hi0
  have ec : col i = q := Fin.ext hi1
  rw [pay1_apply]
  unfold stage
  rw [er, ec]
  simp only [h0, h1, h2, h3, h4]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid's 20 points: the two row-blocked inputs and the output sit at block
    row t, block column 0; the weight matrices and the bias row are one block each, at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 20 :=
  Nat.lt_of_lt_of_eq t.isLt (show cfg1.N = 20 from N_1)

/-- The block of neighbour means at point t is rows 5000 t … of the array of means. -/
theorem iblk_0 (c : Dev nD) (t : Fin cfg1.N) (p : Fin 5000) (k : Fin 128) :
    (iblk1 V c 0 t : Vec Ideal S5000x128 .f32) (ix2 p k)
      = (V c main_v41 : Vec Ideal S100000x128 .f32) (ix2 ⟨5000 * t.val + p.val, by have := t_lt t; omega⟩ k) := by
  obtain ⟨e0, e1, -⟩ := idx_facts t
  show (V c main_v41 : Vec Ideal S100000x128 .f32) (((cfg1.win 0).blk t).view.emb (ix2 p k)) = _
  refine congrArg (V c main_v41 : Vec Ideal S100000x128 .f32) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- The block of hidden features at point t is rows 5000 t … of the array of hidden features. -/
theorem iblk_1 (c : Dev nD) (t : Fin cfg1.N) (p : Fin 5000) (k : Fin 128) :
    (iblk1 V c 1 t : Vec Ideal S5000x128 .f32) (ix2 p k)
      = (V c main_v28 : Vec Ideal S100000x128 .f32) (ix2 ⟨5000 * t.val + p.val, by have := t_lt t; omega⟩ k) := by
  obtain ⟨-, -, e0, e1, -⟩ := idx_facts t
  show (V c main_v28 : Vec Ideal S100000x128 .f32) (((cfg1.win 1).blk t).view.emb (ix2 p k)) = _
  refine congrArg (V c main_v28 : Vec Ideal S100000x128 .f32) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 128 + 1 * k.val = k.val; rw [e1]; omega

/-- The first weight matrix is one block: every point reads all of it. -/
theorem iblk_2 (c : Dev nD) (t : Fin cfg1.N) (k : Fin 128) (q : Fin 64) :
    (iblk1 V c 2 t : Vec Ideal S128x64 .bf16) (ix2 k q) = (V c main_v42 : Vec Ideal S128x64 .bf16) (ix2 k q) := by
  obtain ⟨-, -, -, -, e0, e1, -⟩ := idx_facts t
  show (V c main_v42 : Vec Ideal S128x64 .bf16) (((cfg1.win 2).blk t).view.emb (ix2 k q)) = _
  refine congrArg (V c main_v42 : Vec Ideal S128x64 .bf16) (funext fun a => Fin.ext ?_)
  match a with
  | ⟨0, _⟩ => show win1_2.index t (0 : Fin 2) * 128 + 1 * k.val = k.val; rw [e0]; omega
  | ⟨1, _⟩ => show win1_2.index t (1 : Fin 2) * 64 + 1 * q.val = q.val; rw [e1]; omega

/-- The second weight matrix is one block: every point reads all of it. -/
theorem iblk_3 (c : Dev nD) (t : Fin cfg1.N) (k : Fin 128) (q : Fin 64) :
    (iblk1 V c 3 t : Vec Ideal S128x64 .bf16) (ix2 k q) = (V c main_v43 : Vec Ideal S128x64 .bf16) (ix2 k q) := by
  obtain ⟨-, -, -, -, -, -, e0, e1, -⟩ := idx_facts t
  show (V c main_v43 : Vec Ideal S128x64 .bf16) (((cfg1.win 3).blk t).view.emb (ix2 k q)) = _
  refine congrArg (V c main_v43 : Vec Ideal S128x64 .bf16) (funext fun a => Fin.ext ?_)
  match a with
  | ⟨0, _⟩ => show win1_3.index t (0 : Fin 2) * 128 + 1 * k.val = k.val; rw [e0]; omega
  | ⟨1, _⟩ => show win1_3.index t (1 : Fin 2) * 64 + 1 * q.val = q.val; rw [e1]; omega

/-- The bias row is one block: every point reads all of it. -/
theorem iblk_4 (c : Dev nD) (t : Fin cfg1.N) (q : Fin 64) :
    (iblk1 V c 4 t : Vec Ideal S1x64 .f32) (ix2 0 q) = (V c main_v44 : Vec Ideal S1x64 .f32) (ix2 0 q) := by
  obtain ⟨-, -, -, -, -, -, -, -, e0, e1, -⟩ := idx_facts t
  show (V c main_v44 : Vec Ideal S1x64 .f32) (((cfg1.win 4).blk t).view.emb (ix2 0 q)) = _
  refine congrArg (V c main_v44 : Vec Ideal S1x64 .f32) (funext fun a => Fin.ext ?_)
  match a with
  | ⟨0, _⟩ => show win1_4.index t (0 : Fin 2) * 1 + 1 * 0 = 0; rw [e0]
  | ⟨1, _⟩ => show win1_4.index t (1 : Fin 2) * 64 + 1 * q.val = q.val; rw [e1]; omega

/-- What point t writes back is rows 5000 t … of the stage's whole-array function of the arrays as the stage finds them. -/
theorem flushed_eq (c : Dev nD) (t : Fin cfg1.N) :
    (dat1 V c).flushed 5 t = ((cfg1.win 5).blk t).view.read (Elt Ideal)
      (stage (V c main_v41) (V c main_v28) (V c main_v42) (V c main_v43) (V c main_v44)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  obtain ⟨-, -, -, -, -, -, -, -, -, -, e0, e1⟩ := idx_facts t
  funext j
  show k1_pay1 (F := Ideal) (iblk1 V c 0 t) (iblk1 V c 1 t) (iblk1 V c 2 t) (iblk1 V c 3 t) (iblk1 V c 4 t) j
    = stage (V c main_v41) (V c main_v28) (V c main_v42) (V c main_v43) (V c main_v44) (((cfg1.win 5).blk t).view.emb j)
  refine block_entry (V c main_v41) (V c main_v28) (V c main_v42) (V c main_v43) (V c main_v44)
    (iblk1 V c 0 t) (iblk1 V c 1 t) (iblk1 V c 2 t) (iblk1 V c 3 t) (iblk1 V c 4 t) t.val (t_lt t)
    (iblk_0 V c t) (iblk_1 V c t) (iblk_2 V c t) (iblk_3 V c t) (iblk_4 V c t) j (((cfg1.win 5).blk t).view.emb j) ?_ ?_
  · show win1_5.index t (0 : Fin 2) * 5000 + 1 * (j 0).val = 5000 * t.val + (j 0).val
    rw [e0]; omega
  · show win1_5.index t (1 : Fin 2) * 64 + 1 * (j 1).val = (j 1).val
    rw [e1]; omega

/-- An index of the result array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v45).slice (win1_5.rect t)).set ↔ _
  rw [View.set_slice_whole, Rect.mem_set_unit]
  exact Iff.rfl

/-- Every row of the result belongs to a point: row r to point r / 5000. -/
theorem cover (i : S100000x64.Idx) : ∃ t : Fin cfg1.N, (cfg1.win 5).flush t = true ∧ i ∈ ((cfg1.win 5).blk t).view.set := by
  have hi0 : (i 0).val < 100000 := idx2_lt0 i
  have hi1 : (i 1).val < 64 := idx2_lt1 i
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 64 ≤ (i 1).val ∧ (i 1).val < win1_5.index t (1 : Fin 2) * 64 + 64
    rw [e1]; omega

/-- The result array after the stage: the stage's function of the arrays as the stage finds them. -/
theorem array_after (c : Dev nD) :
    (dat1 V c).arrAt 5 cfg1.N = stage (V c main_v41) (V c main_v28) (V c main_v42) (V c main_v43) (V c main_v44) :=
  (dat1 V c).arrAt_eq_of_cover 5 _ (fun t _ => flushed_eq V c t) (cover)

end Cert.KernelIdeal.Stage1

end
-- ==== Proof.HostSide.lean ====
/-
  What the kernel program's host operations hand to its two dense stages.

  From the edge list e (2 x 1600000 integers: row 0 the source node of each edge, row 1 its destination) the host forms
    src(e), dst(e)   the two rows as vectors;
    dinv(e)          per node, 1 / max(deg, 1), where deg is the number of edges that end at the node (a scatter-add of ones);
    mean(f; …)       for a feature array f: gather the source rows of f (a negative source index wraps by 100000), scatter-add
                     them to their destinations, and multiply row r by dinv at r.
  The first stage is entered with mean(x), x, the two weight matrices rounded to sixteen bits (the identity on the
  extended reals) and the bias as a 1 x 128 row; the second with mean(h), h, its own weights and bias, h being the array the
  first stage left. Nothing here opens the gather or the scatter-add: they are the same operations in the reference.
-/
import proofs.«140580_j48876727828948_1_alg».proof.Proof.Gen.KernelIdeal.Frame
import Idealize.ShloMosaic.PureOps.Ideal.Laws
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-- The source node of each edge. -/
def srcOf (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The destination node of each edge. -/
def dstOf (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- Per node, the in-degree: a scatter-add of one per edge onto zeros. -/
def degOf (dst : (⟨S1600000, .i32⟩ : BufTy).Contents (Elt Ideal)) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- Per node, 1 / max(deg, 1). -/
def dinvOf (dst : (⟨S1600000, .i32⟩ : BufTy).Contents (Elt Ideal)) : FVec Ideal S100000 .f32 :=
  Host.divf (F := Ideal) (broadcastInDim S100000 ![] bcast_S_S100000 (constant (F := Ideal) S_ .f32 0x3F800000#32))
    (maximumf (F := Ideal) (degOf dst) (broadcastInDim S100000 ![] bcast_S_S100000 (constant (F := Ideal) S_ .f32 0x3F800000#32)))

/-- The sum, per destination node, of the rows of f at the edges' source nodes. -/
def aggOf (f : FVec Ideal S100000x128 .f32) (src dst : (⟨S1600000, .i32⟩ : BufTy).Contents (Elt Ideal)) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 f
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The neighbour means: the sums times the per-node reciprocal, row by row. -/
def meanOf (f : FVec Ideal S100000x128 .f32) (src dst : (⟨S1600000, .i32⟩ : BufTy).Contents (Elt Ideal)) (dinv : FVec Ideal S100000 .f32) :
    FVec Ideal S100000x128 .f32 :=
  mulf (F := Ideal) (aggOf f src dst)
    (broadcastInDim S100000x128 ![0, 1] bcast_S100000x1_S100000x128_0_1 (broadcastInDim S100000x1 ![0] bcast_S100000_S100000x1_0 dinv))

variable (m : (ℓ : Loc nD τ sig) → Buf (Elt Ideal) ℓ) (ρ : Dev nD → PrngReg)

/-! ## The first stage's entry -/

set_option maxHeartbeats 4000000 in
/-- The first stage is entered with the neighbour means of the features. -/
theorem entry0_mean (c : Dev nD) :
    W1 m ρ c (Proc.devRef .tc main_v24)
      = meanOf (m ((c : Thread nD τ).loc main_arg0)) (srcOf (m ((c : Thread nD τ).loc main_arg1))) (dstOf (m ((c : Thread nD τ).loc main_arg1)))
          (dinvOf (dstOf (m ((c : Thread nD τ).loc main_arg1)))) := by
  dsimp only [W1, W0, hostOps0]
  after_results_simp
  rfl

/-- The features reach the first stage as launched. -/
theorem entry0_x (c : Dev nD) : W1 m ρ c (Proc.devRef .tc main_arg0) = m ((c : Thread nD τ).loc main_arg0) := by
  dsimp only [W1, W0, hostOps0]
  after_results_simp <;> rfl

/-- The first stage's left weight matrix: the argument rounded to sixteen bits. -/
theorem entry0_wl (c : Dev nD) : W1 m ρ c (Proc.devRef .tc main_v25) = truncf (F := Ideal) .bf16 (m ((c : Thread nD τ).loc main_arg2)) bitsLt_bf16_f32 := by
  dsimp only [W1, W0, hostOps0]
  after_results_simp <;> rfl

/-- The first stage's right weight matrix: the argument rounded to sixteen bits. -/
theorem entry0_wr (c : Dev nD) : W1 m ρ c (Proc.devRef .tc main_v26) = truncf (F := Ideal) .bf16 (m ((c : Thread nD τ).loc main_arg3)) bitsLt_bf16_f32 := by
  dsimp only [W1, W0, hostOps0]
  after_results_simp <;> rfl

/-- The first stage's bias: the argument as a 1 x 128 row. -/
theorem entry0_b (c : Dev nD) : W1 m ρ c (Proc.devRef .tc main_v27) = shapeCast S1x128 (m ((c : Thread nD τ).loc main_arg4)) shapeCasts_S128_S1x128 := by
  dsimp only [W1, W0, hostOps0]
  after_results_simp <;> rfl

/-- The edges' source nodes, as the first stretch leaves them. -/
theorem w1_src (c : Dev nD) : W1 m ρ c (Proc.devRef .tc main_v1) = srcOf (m ((c : Thread nD τ).loc main_arg1)) := by
  dsimp only [W1, W0, hostOps0]
  after_results_simp <;> rfl

/-- The edges' destination nodes, as the first stretch leaves them. -/
theorem w1_dst (c : Dev nD) : W1 m ρ c (Proc.devRef .tc main_v3) = dstOf (m ((c : Thread nD τ).loc main_arg1)) := by
  dsimp only [W1, W0, hostOps0]
  after_results_simp <;> rfl

set_option maxHeartbeats 4000000 in
/-- The per-node reciprocals, as the first stretch leaves them. -/
theorem w1_dinv (c : Dev nD) : W1 m ρ c (Proc.devRef .tc main_v11) = dinvOf (dstOf (m ((c : Thread nD τ).loc main_arg1))) := by
  dsimp only [W1, W0, hostOps0]
  after_results_simp <;> rfl

/-- The second stage's weights and bias are not touched by the first stretch. -/
theorem w1_arg5 (c : Dev nD) : W1 m ρ c (Proc.devRef .tc main_arg5) = m ((c : Thread nD τ).loc main_arg5) := by
  dsimp only [W1, W0, hostOps0]
  after_results_simp <;> rfl
theorem w1_arg6 (c : Dev nD) : W1 m ρ c (Proc.devRef .tc main_arg6) = m ((c : Thread nD τ).loc main_arg6) := by
  dsimp only [W1, W0, hostOps0]
  after_results_simp <;> rfl
theorem w1_arg7 (c : Dev nD) : W1 m ρ c (Proc.devRef .tc main_arg7) = m ((c : Thread nD τ).loc main_arg7) := by
  dsimp only [W1, W0, hostOps0]
  after_results_simp <;> rfl

/-! ## The second stage's entry, from what the first stage's exit holds -/

set_option maxHeartbeats 4000000 in
/-- The second stage is entered with the neighbour means of what its feature array holds. -/
theorem entry1_mean (c : Dev nD) :
    W3 m ρ c (Proc.devRef .tc main_v41)
      = meanOf (W2 m ρ c (Proc.devRef .tc main_v28)) (W2 m ρ c (Proc.devRef .tc main_v1)) (W2 m ρ c (Proc.devRef .tc main_v3))
          (W2 m ρ c (Proc.devRef .tc main_v11)) := by
  dsimp only [W3, hostOps1]
  after_results_simp <;> rfl

/-- The hidden features reach the second stage as the first stage left them. -/
theorem entry1_h (c : Dev nD) : W3 m ρ c (Proc.devRef .tc main_v28) = W2 m ρ c (Proc.devRef .tc main_v28) := by
  dsimp only [W3, hostOps1]
  after_results_simp <;> rfl

theorem entry1_wl (c : Dev nD) : W3 m ρ c (Proc.devRef .tc main_v42) = truncf (F := Ideal) .bf16 (W2 m ρ c (Proc.devRef .tc main_arg5)) bitsLt_bf16_f32 := by
  dsimp only [W3, hostOps1]
  after_results_simp <;> rfl

theorem entry1_wr (c : Dev nD) : W3 m ρ c (Proc.devRef .tc main_v43) = truncf (F := Ideal) .bf16 (W2 m ρ c (Proc.devRef .tc main_arg6)) bitsLt_bf16_f32 := by
  dsimp only [W3, hostOps1]
  after_results_simp <;> rfl

theorem entry1_b (c : Dev nD) : W3 m ρ c (Proc.devRef .tc main_v44) = shapeCast S1x64 (W2 m ρ c (Proc.devRef .tc main_arg7)) shapeCasts_S64_S1x64 := by
  dsimp only [W3, hostOps1]
  after_results_simp <;> rfl

/-! ## Across the first stage: every buffer that is not one of its arrays is kept -/

theorem w2_src (c : Dev nD) : W2 m ρ c (Proc.devRef .tc main_v1) = srcOf (m ((c : Thread nD τ).loc main_arg1)) :=
  (W2_of_ne m ρ c main_v1 (by decide)).trans (w1_src m ρ c)
theorem w2_dst (c : Dev nD) : W2 m ρ c (Proc.devRef .tc main_v3) = dstOf (m ((c : Thread nD τ).loc main_arg1)) :=
  (W2_of_ne m ρ c main_v3 (by decide)).trans (w1_dst m ρ c)
theorem w2_dinv (c : Dev nD) : W2 m ρ c (Proc.devRef .tc main_v11) = dinvOf (dstOf (m ((c : Thread nD τ).loc main_arg1))) :=
  (W2_of_ne m ρ c main_v11 (by decide)).trans (w1_dinv m ρ c)
theorem w2_arg5 (c : Dev nD) : W2 m ρ c (Proc.devRef .tc main_arg5) = m ((c : Thread nD τ).loc main_arg5) :=
  (W2_of_ne m ρ c main_arg5 (by decide)).trans (w1_arg5 m ρ c)
theorem w2_arg6 (c : Dev nD) : W2 m ρ c (Proc.devRef .tc main_arg6) = m ((c : Thread nD τ).loc main_arg6) :=
  (W2_of_ne m ρ c main_arg6 (by decide)).trans (w1_arg6 m ρ c)
theorem w2_arg7 (c : Dev nD) : W2 m ρ c (Proc.devRef .tc main_arg7) = m ((c : Thread nD τ).loc main_arg7) :=
  (W2_of_ne m ρ c main_arg7 (by decide)).trans (w1_arg7 m ρ c)

end Cert.KernelIdeal.Host

end
-- ==== Proof.KernelValue.lean ====
/-
  The kernel program's result as one function of its arguments.

  Reading the program's four stretches back from the end: the result array is what the second dense stage leaves, a
  function of the arrays that stage is entered with; those are the neighbour means of h, h itself, and the second
  layer's weights and bias, where h is what the first dense stage left; and h is the first stage's function of the
  neighbour means of x, x itself, and the first layer's weights and bias. With
      hidden = stage0(mean(x), x, W1l, W1r, b1)         output = stage1(mean(hidden), hidden, W2l, W2r, b2)
  every weakly fair execution ends with the result array at output of the launch contents of the arguments, and the
  arguments unchanged.
-/
import proofs.«140580_j48876727828948_1_alg».proof.Proof.WholeRun
import proofs.«140580_j48876727828948_1_alg».proof.Proof.StageArray0
import proofs.«140580_j48876727828948_1_alg».proof.Proof.StageArray1
import proofs.«140580_j48876727828948_1_alg».proof.Proof.HostSide

set_option maxRecDepth 16384

noncomputable section

namespace Cert.KernelIdeal.Result

open Cert.KernelIdeal Cert.KernelIdeal.Gen Cert.KernelIdeal.Host
open Idealize.ShloMosaic Idealize.ShloMosaic.TcCoe Idealize.SL.Sem

/-- The hidden features: the first dense stage on the neighbour means of the features and the features. -/
def hidden (x0 : FVec Ideal S100000x128 .f32) (x1 : (⟨S2x1600000, .i32⟩ : BufTy).Contents (Elt Ideal))
    (x2 x3 : FVec Ideal S128x128 .f32) (x4 : FVec Ideal S128 .f32) : FVec Ideal S100000x128 .f32 :=
  Stage0.stage (meanOf x0 (srcOf x1) (dstOf x1) (dinvOf (dstOf x1))) x0
    (truncf (F := Ideal) .bf16 x2 bitsLt_bf16_f32) (truncf (F := Ideal) .bf16 x3 bitsLt_bf16_f32) (shapeCast S1x128 x4 shapeCasts_S128_S1x128)

/-- The result: the second dense stage on the neighbour means of the hidden features and the hidden features. -/
def output (x0 : FVec Ideal S100000x128 .f32) (x1 : (⟨S2x1600000, .i32⟩ : BufTy).Contents (Elt Ideal))
    (x2 x3 : FVec Ideal S128x128 .f32) (x4 : FVec Ideal S128 .f32) (x5 x6 : FVec Ideal S128x64 .f32) (x7 : FVec Ideal S64 .f32) :
    FVec Ideal S100000x64 .f32 :=
  Stage1.stage (meanOf (hidden x0 x1 x2 x3 x4) (srcOf x1) (dstOf x1) (dinvOf (dstOf x1))) (hidden x0 x1 x2 x3 x4)
    (truncf (F := Ideal) .bf16 x5 bitsLt_bf16_f32) (truncf (F := Ideal) .bf16 x6 bitsLt_bf16_f32) (shapeCast S1x64 x7 shapeCasts_S64_S1x64)

variable (m : (ℓ : Loc nD τ sig) → Buf (Elt Ideal) ℓ) (ρ : Dev nD → PrngReg)

/-- After the first dense stage its result array holds the hidden features of the arguments. -/
theorem hidden_eq (c : Dev nD) :
    W2 m ρ c (Proc.devRef .tc main_v28) = hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [Stage0.array_after (V1 m ρ) c]
  show Stage0.stage (W1 m ρ c (Proc.devRef .tc main_v24)) (W1 m ρ c (Proc.devRef .tc main_arg0)) (W1 m ρ c (Proc.devRef .tc main_v25))
    (W1 m ρ c (Proc.devRef .tc main_v26)) (W1 m ρ c (Proc.devRef .tc main_v27)) = _
  rw [entry0_mean, entry0_x, entry0_wl, entry0_wr, entry0_b]
  rfl

/-- At the end the result array holds the output of the arguments. -/
theorem output_eq (c : Dev nD) :
    W4 m ρ c (Proc.devRef .tc main_v45) = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [Stage1.array_after (V3 m ρ) c]
  show Stage1.stage (W3 m ρ c (Proc.devRef .tc main_v41)) (W3 m ρ c (Proc.devRef .tc main_v28)) (W3 m ρ c (Proc.devRef .tc main_v42))
    (W3 m ρ c (Proc.devRef .tc main_v43)) (W3 m ρ c (Proc.devRef .tc main_v44)) = _
  rw [entry1_mean, entry1_h, entry1_wl, entry1_wr, entry1_b, hidden_eq, w2_src, w2_dst, w2_dinv, w2_arg5, w2_arg6, w2_arg7]
  rfl

/-- The run: the result array at the output of the arguments, the arguments unchanged. -/
theorem run : θ_run defs (onTc (τ := τ) (main (F := Ideal))) ⟨m, fun _ => 0, ρ⟩ (fun r => ∀ c : Dev nD,
      r.2.mem ((c.tc : Thread nD τ).loc main_v45) = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (output_eq m ρ c), (h c).2⟩) (Whole.run_result m ρ)

end Cert.KernelIdeal.Result

end
-- ==== Proof.SageLaws.lean ====
/-
  The two laws of the extended reals that join the two programs.

  Both programs form, for every node, the mean of its in-neighbours' feature rows: the sum of the rows divided by
  D = max(deg, 1), where deg is the node's in-degree. One program divides the sum by D; the other multiplies it by the
  reciprocal 1 / D computed once. On the extended reals division by a divisor other than zero is multiplication by its
  inverse, and D is at least 1 whatever deg is (even an infinity), so the two agree for every sum, finite or not: no
  finiteness of the inputs is used. The second law is only that a sum of three terms does not depend on the order in
  which the last two are added.
-/
import Idealize.ShloMosaic.PureOps.Ideal.Laws
import Idealize.ShloMosaic.PureOps.IdealRules

noncomputable section

namespace Cert.SageLaws

open Idealize.ShloMosaic

/-- The single-precision pattern of 1.0 denotes the real number 1. -/
theorem one_f32 : Ideal.ofBits .f32 0x3F800000#32 = 1 := IdealRules.sign_bit.ideal_onePat .f32

/-- The divisor max(d, 1) is never zero: it is at least 1. -/
theorem max_one_ne_zero (d : EReal) : max d 1 ≠ 0 :=
  ne_of_gt (lt_of_lt_of_le zero_lt_one (le_max_right d 1))

/-- Multiplying by the reciprocal of max(d, 1) is dividing by max(d, 1), for every extended real a and d. -/
theorem mul_recip_eq_div (a d : EReal) : a * Ideal.div 1 (max d 1) = Ideal.div a (max d 1) := by
  unfold Ideal.div
  rw [if_neg (max_one_ne_zero d), if_neg (max_one_ne_zero d), one_mul]

/-- The same with both programs' spellings of the constant 1.0. -/
theorem mul_recip_eq_div_f32 (a d : EReal) :
    a * Ideal.div (Ideal.ofBits .f32 0x3F800000#32) (max d (Ideal.ofBits .f32 0x3F800000#32))
      = Ideal.div a (max d (Ideal.ofBits .f32 0x3F800000#32)) := by
  rw [one_f32]; exact mul_recip_eq_div a d

/-- (A + B) + b = (A + b) + B on the extended reals. -/
theorem add_swap (A B b : EReal) : A + B + b = A + b + B := add_right_comm A B b

end Cert.SageLaws

end
-- ==== Proof.MeanLaw.lean ====
/-
  The neighbour means in the two programs' spellings are one array.

  With agg the per-destination sums of the source rows and D = max(deg, 1) per node, one program forms agg(r, k) / D(r) and
  the other agg(r, k) * (1 / D(r)); D(r) is at least 1, so the two are equal entry by entry on the extended reals, for any
  feature array and any edge list. The per-node values reach entry (r, k) through two broadcasts — to a column, then
  across the columns — which read back the value at row r.
-/
import proofs.«140580_j48876727828948_1_alg».proof.Proof.HostSide
import proofs.«140580_j48876727828948_1_alg».proof.Proof.StageArray0
import proofs.«140580_j48876727828948_1_alg».proof.Proof.SageLaws
import Idealize.ShloMosaic.Lib.Pipeline.Value
import Idealize.ShloMosaic.Lib.ValueIdx

set_option maxRecDepth 16384

noncomputable section

namespace Cert.KernelIdeal.MeanLaw

open Cert.KernelIdeal Cert.KernelIdeal.Gen Cert.KernelIdeal.Host Cert.SageLaws
open Idealize.ShloMosaic Idealize.ShloMosaic.ValueIdx

/-- A per-node vector broadcast to a column and then across the 128 columns, read at (r, k), is the vector at r. -/
theorem bcast_rows {α : Type} (X : S100000.Idx → α) (i : S100000x128.Idx) :
    broadcastInDim S100000x128 ![0, 1] bcast_S100000x1_S100000x128_0_1 (broadcastInDim S100000x1 ![0] bcast_S100000_S100000x1_0 X) i
      = X (ix1 (Stage0.row i)) := by
  have h1 : broadcastInDim S100000x128 ![0, 1] bcast_S100000x1_S100000x128_0_1 (broadcastInDim S100000x1 ![0] bcast_S100000_S100000x1_0 X) i
      = broadcastInDim S100000x1 ![0] bcast_S100000_S100000x1_0 X (ix2 (Stage0.row i) (0 : Fin 1)) := by
    refine broadcastInDim_apply _ bcast_S100000x1_S100000x128_0_1 _ i (ix2 (Stage0.row i) (0 : Fin 1)) (fun a => ?_)
    match a with
    | ⟨0, _⟩ => show (i 0).val = if (100000 : Nat) = 1 then 0 else (i 0).val; rw [if_neg (by decide)]
    | ⟨1, _⟩ => show (0 : Nat) = if (1 : Nat) = 1 then 0 else (i 1).val; rw [if_pos rfl]
  have h2 : broadcastInDim S100000x1 ![0] bcast_S100000_S100000x1_0 X (ix2 (Stage0.row i) (0 : Fin 1)) = X (ix1 (Stage0.row i)) := by
    refine broadcastInDim_apply _ bcast_S100000_S100000x1_0 X (ix2 (Stage0.row i) (0 : Fin 1)) (ix1 (Stage0.row i)) (fun a => ?_)
    match a with
    | ⟨0, _⟩ => show (i 0).val = if (100000 : Nat) = 1 then 0 else (i 0).val; rw [if_neg (by decide)]
  exact h1.trans h2

/-- The law at one entry, for any array of sums a and any vector of degrees D:
    a(r, k) * (1 / max(D(r), 1)) = a(r, k) / max(D(r), 1). -/
theorem entry_law (a : FVec Ideal S100000x128 .f32) (D : FVec Ideal S100000 .f32) (i : S100000x128.Idx) :
    mulf (F := Ideal) a (broadcastInDim S100000x128 ![0, 1] bcast_S100000x1_S100000x128_0_1 (broadcastInDim S100000x1 ![0] bcast_S100000_S100000x1_0 (Host.divf (F := Ideal) (broadcastInDim S100000 ![] bcast_S_S100000 (constant (F := Ideal) S_ .f32 0x3F800000#32)) (maximumf (F := Ideal) D (broadcastInDim S100000 ![] bcast_S_S100000 (constant (F := Ideal) S_ .f32 0x3F800000#32)))))) i
      = Host.divf (F := Ideal) a (broadcastInDim S100000x128 ![0, 1] bcast_S100000x1_S100000x128_0_1 (broadcastInDim S100000x1 ![0] bcast_S100000_S100000x1_0 (maximumf (F := Ideal) D (broadcastInDim S100000 ![] bcast_S_S100000 (constant (F := Ideal) S_ .f32 0x3F800000#32))))) i := by
  show a i * (broadcastInDim S100000x128 ![0, 1] bcast_S100000x1_S100000x128_0_1 (broadcastInDim S100000x1 ![0] bcast_S100000_S100000x1_0 (Host.divf (F := Ideal) (broadcastInDim S100000 ![] bcast_S_S100000 (constant (F := Ideal) S_ .f32 0x3F800000#32)) (maximumf (F := Ideal) D (broadcastInDim S100000 ![] bcast_S_S100000 (constant (F := Ideal) S_ .f32 0x3F800000#32)))))) i
      = Ideal.div (a i) ((broadcastInDim S100000x128 ![0, 1] bcast_S100000x1_S100000x128_0_1 (broadcastInDim S100000x1 ![0] bcast_S100000_S100000x1_0 (maximumf (F := Ideal) D (broadcastInDim S100000 ![] bcast_S_S100000 (constant (F := Ideal) S_ .f32 0x3F800000#32))))) i)
  rw [bcast_rows, bcast_rows]
  exact mul_recip_eq_div_f32 (a i) (D (ix1 (Stage0.row i)))

/-- The neighbour means spelt with a division: the sums over max(deg, 1), row by row. -/
def meanDiv (f : FVec Ideal S100000x128 .f32) (e : (⟨S2x1600000, .i32⟩ : BufTy).Contents (Elt Ideal)) : FVec Ideal S100000x128 .f32 :=
  Host.divf (F := Ideal) (aggOf f (srcOf e) (dstOf e)) (broadcastInDim S100000x128 ![0, 1] bcast_S100000x1_S100000x128_0_1 (broadcastInDim S100000x1 ![0] bcast_S100000_S100000x1_0 (maximumf (F := Ideal) (degOf (dstOf e)) (broadcastInDim S100000 ![] bcast_S_S100000 (constant (F := Ideal) S_ .f32 0x3F800000#32)))))

/-- Multiplying the sums by 1 / max(deg, 1) is dividing them by max(deg, 1). -/
theorem mean_eq (f : FVec Ideal S100000x128 .f32) (e : (⟨S2x1600000, .i32⟩ : BufTy).Contents (Elt Ideal)) :
    meanOf f (srcOf e) (dstOf e) (dinvOf (dstOf e)) = meanDiv f e :=
  funext fun i => entry_law (aggOf f (srcOf e) (dstOf e)) (degOf (dstOf e)) i

end Cert.KernelIdeal.MeanLaw

end
-- ==== Proof.Bridge.lean ====
/-
  The reference computes the same two functions.

  The reference forms, per layer, relu((mean(f) Wl + b) + f Wr) with mean(f) = agg(f) / max(deg, 1), the matrix products
  being plain sums over the 128 contracted positions on the extended reals. The kernel program's stage is
  relu((mean(f) Wl + f Wr) + b) with mean(f) = agg(f) * (1 / max(deg, 1)) and its weights rounded to sixteen bits, which
  changes nothing on the extended reals. So layer by layer, entry by entry, the two agree: the means by the reciprocal
  law, the three-term sum by commutativity and associativity of addition, and the gather and the scatter-add are the same
  operations applied to arrays already known equal. No finiteness of the inputs is used.
-/
import proofs.«140580_j48876727828948_1_alg».proof.Proof.KernelValue
import proofs.«140580_j48876727828948_1_alg».proof.Proof.MeanLaw
import proofs.«140580_j48876727828948_1_alg».proof.Proof.Gen.ReferenceIdeal.Read
import Idealize.ShloMosaic.Lib.Pipeline.Value
import Idealize.ShloMosaic.Lib.ValueIdx

set_option maxRecDepth 16384

noncomputable section

namespace Cert.Bridge

open Cert.KernelIdeal Cert.KernelIdeal.Gen Cert.KernelIdeal.Host Cert.KernelIdeal.Result Cert.KernelIdeal.MeanLaw Cert.SageLaws
open Cert.ReferenceIdeal.Read
open Idealize.ShloMosaic Idealize.ShloMosaic.ValueIdx

/-! ## The reference's neighbour means are the sums over max(deg, 1) -/

theorem ref_mean1 (x0 : FVec Ideal S100000x128 .f32) (x1 : (⟨S2x1600000, .i32⟩ : BufTy).Contents (Elt Ideal)) :
    val_main_v22 (F := Ideal) x0 x1 = meanDiv x0 x1 := rfl

theorem ref_mean2 (x0 : FVec Ideal S100000x128 .f32) (x1 : (⟨S2x1600000, .i32⟩ : BufTy).Contents (Elt Ideal)) (x2 x3 : FVec Ideal S128x128 .f32) (x4 : FVec Ideal S128 .f32) :
    val_main_v48 (F := Ideal) x0 x1 x2 x3 x4 = meanDiv (val_main_v29 (F := Ideal) x0 x1 x2 x3 x4) x1 := rfl

/-! ## The contracted positions, by coordinates -/

theorem l23 (i : S100000x128.Idx) (k : Fin 128) : lidx_main_v23 i k = ix2 (Stage0.row i) k :=
  funext fun a => by match a with | ⟨0, _⟩ => rfl | ⟨1, _⟩ => rfl
theorem r23 (i : S100000x128.Idx) (k : Fin 128) : ridx_main_v23 i k = ix2 k (Stage0.col i) :=
  funext fun a => by match a with | ⟨0, _⟩ => rfl | ⟨1, _⟩ => rfl
theorem l27 (i : S100000x128.Idx) (k : Fin 128) : lidx_main_v27 i k = ix2 (Stage0.row i) k :=
  funext fun a => by match a with | ⟨0, _⟩ => rfl | ⟨1, _⟩ => rfl
theorem r27 (i : S100000x128.Idx) (k : Fin 128) : ridx_main_v27 i k = ix2 k (Stage0.col i) :=
  funext fun a => by match a with | ⟨0, _⟩ => rfl | ⟨1, _⟩ => rfl
theorem l49 (i : S100000x64.Idx) (k : Fin 128) : lidx_main_v49 i k = ix2 (Stage1.row i) k :=
  funext fun a => by match a with | ⟨0, _⟩ => rfl | ⟨1, _⟩ => rfl
theorem r49 (i : S100000x64.Idx) (k : Fin 128) : ridx_main_v49 i k = ix2 k (Stage1.col i) :=
  funext fun a => by match a with | ⟨0, _⟩ => rfl | ⟨1, _⟩ => rfl
theorem l53 (i : S100000x64.Idx) (k : Fin 128) : lidx_main_v53 i k = ix2 (Stage1.row i) k :=
  funext fun a => by match a with | ⟨0, _⟩ => rfl | ⟨1, _⟩ => rfl
theorem r53 (i : S100000x64.Idx) (k : Fin 128) : ridx_main_v53 i k = ix2 k (Stage1.col i) :=
  funext fun a => by match a with | ⟨0, _⟩ => rfl | ⟨1, _⟩ => rfl

/-! ## The bias: broadcast down the rows by the reference, a 1 x n row read at (0, q) by the kernel program -/

theorem bias1 (x4 : FVec Ideal S128 .f32) (i : S100000x128.Idx) :
    val_main_v25 (F := Ideal) x4 i = shapeCast S1x128 x4 shapeCasts_S128_S1x128 (ix2 (0 : Fin 1) (Stage0.col i)) := by
  rw [val_main_v25_apply, val_main_v24_apply]
  refine (shapeCast_apply x4 shapeCasts_S128_S1x128 (ix2 (0 : Fin 1) (Stage0.col i)) _ ?_).symm
  rw [Shape.rowMajor_val_one, Shape.rowMajor_val_two]
  show (i 1).val = 0 * 128 + (i 1).val
  omega

theorem bias2 (x7 : FVec Ideal S64 .f32) (i : S100000x64.Idx) :
    val_main_v51 (F := Ideal) x7 i = shapeCast S1x64 x7 shapeCasts_S64_S1x64 (ix2 (0 : Fin 1) (Stage1.col i)) := by
  rw [val_main_v51_apply, val_main_v50_apply]
  refine (shapeCast_apply x7 shapeCasts_S64_S1x64 (ix2 (0 : Fin 1) (Stage1.col i)) _ ?_).symm
  rw [Shape.rowMajor_val_one, Shape.rowMajor_val_two]
  show (i 1).val = 0 * 64 + (i 1).val
  omega

/-! ## Layer by layer -/

/-- The reference's hidden features are the kernel program's. -/
theorem layer1 (x0 : FVec Ideal S100000x128 .f32) (x1 : (⟨S2x1600000, .i32⟩ : BufTy).Contents (Elt Ideal)) (x2 x3 : FVec Ideal S128x128 .f32) (x4 : FVec Ideal S128 .f32) :
    val_main_v29 (F := Ideal) x0 x1 x2 x3 x4 = Result.hidden x0 x1 x2 x3 x4 := by
  funext i
  rw [val_main_v29_apply, val_main_v28_apply, val_main_v26_apply, val_main_v23_apply, val_main_v27_apply, bias1,
    val_main_call0_v0_apply, val_main_call0_cst_apply, ref_mean1, ← mean_eq]
  simp only [l23, r23, l27, r27, Ideal.maximumf_def, Ideal.addf_def, Ideal.ofBits_def, Ideal.ofBits_zero_f32]
  unfold Result.hidden Stage0.stage
  rw [add_swap]
  rfl

/-- The reference's result is the kernel program's. -/
theorem layer2 (x0 : FVec Ideal S100000x128 .f32) (x1 : (⟨S2x1600000, .i32⟩ : BufTy).Contents (Elt Ideal)) (x2 x3 : FVec Ideal S128x128 .f32) (x4 : FVec Ideal S128 .f32) (x5 x6 : FVec Ideal S128x64 .f32) (x7 : FVec Ideal S64 .f32) :
    val_main_v55 (F := Ideal) x0 x1 x2 x3 x4 x5 x6 x7 = Result.output x0 x1 x2 x3 x4 x5 x6 x7 := by
  funext i
  rw [val_main_v55_apply, val_main_v54_apply, val_main_v52_apply, val_main_v49_apply, val_main_v53_apply, bias2,
    val_main_call1_v0_apply, val_main_call1_cst_apply, ref_mean2, layer1, ← mean_eq]
  simp only [l49, r49, l53, r53, Ideal.maximumf_def, Ideal.addf_def, Ideal.ofBits_def, Ideal.ofBits_zero_f32]
  unfold Result.output Stage1.stage
  rw [add_swap]
  rfl

end Cert.Bridge

end
-- ==== Proof.lean ====
/-
  A two-layer graph convolution with mean aggregation: the tiled kernel program against its plain reference, over the
  extended reals.

  Both programs compute, for features x (100000 x 128) and an edge list e,
      h = relu(mean(x) W1l + x W1r + b1),      z = relu(mean(h) W2l + h W2r + b2),
  where mean(f) at node r is the sum of the rows of f at the sources of the edges ending at r, divided by max(deg(r), 1).
  They differ in three ways, none of which changes a value on the extended reals:
    * the kernel program multiplies the sums by the reciprocal 1 / max(deg, 1) where the reference divides by max(deg, 1):
      the divisor is at least 1, hence not zero, and division by a nonzero divisor is multiplication by its inverse;
    * the kernel program adds the bias last, the reference adds it between the two matrix products: addition is
      commutative and associative;
    * the kernel program computes each layer's dense part 5000 rows at a time, with the weights rounded to sixteen bits:
      rounding is the identity here, a product into a zero accumulator is the plain sum over the contracted positions,
      and every row of the result belongs to exactly one block.
  The gather and the scatter-add are the same operations in both programs and are never opened. No finiteness of the
  inputs is needed, so the precondition is not used.

  The pieces: the kernel program's whole run with every buffer named at the end (WholeRun), what each dense stage leaves
  as a function of the arrays it is entered with (DenseBlock, StageArray0, StageArray1), what the host operations hand to
  the stages (HostSide), the result as one function of the arguments (KernelValue), the reciprocal law (SageLaws, MeanLaw)
  and the reference's stages as the same functions (Bridge).
-/
import proofs.«140580_j48876727828948_1_alg».proof.Defs
import proofs.«140580_j48876727828948_1_alg».proof.Proof.Gen.Kernel
import proofs.«140580_j48876727828948_1_alg».proof.Proof.Gen.Kernel.Skeleton
import proofs.«140580_j48876727828948_1_alg».proof.Proof.Gen.Kernel.Launch
import proofs.«140580_j48876727828948_1_alg».proof.Proof.Gen.Kernel.Points
import proofs.«140580_j48876727828948_1_alg».proof.Proof.Gen.Kernel.Frame
import proofs.«140580_j48876727828948_1_alg».proof.Proof.Gen.KernelIdeal
import proofs.«140580_j48876727828948_1_alg».proof.Proof.Gen.KernelIdeal.Skeleton
import proofs.«140580_j48876727828948_1_alg».proof.Proof.Gen.KernelIdeal.Launch
import proofs.«140580_j48876727828948_1_alg».proof.Proof.Gen.KernelIdeal.Points
import proofs.«140580_j48876727828948_1_alg».proof.Proof.Gen.KernelIdeal.Frame
import proofs.«140580_j48876727828948_1_alg».proof.Proof.Gen.ReferenceIdeal
import proofs.«140580_j48876727828948_1_alg».proof.Proof.Gen.ReferenceIdeal.Run
import proofs.«140580_j48876727828948_1_alg».proof.Proof.Gen.ReferenceIdeal.Read
import proofs.«140580_j48876727828948_1_alg».proof.Proof.Gen.Pre_finite_inputs
import proofs.«140580_j48876727828948_1_alg».proof.Proof.KernelValue
import proofs.«140580_j48876727828948_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernel_ideal : Cert.frame_KernelIdeal := fun m ρ _ => Cert.KernelIdeal.Gen.frame m ρ

/-- The idealized reference runs and leaves its arguments unchanged: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result array at the same function of the
    arguments: the kernel program's by its run read back, the reference's by its stages, layer by layer. -/
theorem algebraic : Cert.algebraic_KernelIdeal_ReferenceIdeal := by
  intro m ρ m' ρ' _ hagree
  refine ⟨fun c => Cert.KernelIdeal.Result.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v55_eq, Cert.Bridge.layer2, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
